-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S800000x3 : Shape := ⟨2, ![800000, 3]⟩
abbrev S800000x2 : Shape := ⟨2, ![800000, 2]⟩
abbrev S128x258 : Shape := ⟨2, ![128, 258]⟩
abbrev S128 : Shape := ⟨1, ![128]⟩
abbrev S128x128 : Shape := ⟨2, ![128, 128]⟩
abbrev S1x128 : Shape := ⟨2, ![1, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S800000x3 : S_.BroadcastsInDim S800000x3 (![] : Fin 0 → Fin S800000x3.rank)
  reducesTo_S800000x3_S_d0_1 : S800000x3.ReducesTo [0, 1] S_
  bcast_S_S800000x2 : S_.BroadcastsInDim S800000x2 (![] : Fin 0 → Fin S800000x2.rank)
  reducesTo_S800000x2_S_d0_1 : S800000x2.ReducesTo [0, 1] S_
  bcast_S_S128x258 : S_.BroadcastsInDim S128x258 (![] : Fin 0 → Fin S128x258.rank)
  reducesTo_S128x258_S_d0_1 : S128x258.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg8 : FVec F S128 .f32) (main_arg9 : FVec F S1x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x128 .f32 := Host.absf main_arg9
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  main_v43

def fn_part1 {F : FTy → Type} [FloatOps F] (main_arg5 : FVec F S128x258 .f32) (main_arg6 : FVec F S128 .f32) (main_arg7 : FVec F S128x128 .f32) (main_arg8 : FVec F S128 .f32) (main_arg9 : FVec F S1x128 .f32) (main_v13 : IVec S_ 1) (main_v16 : IVec S800000x2 1) : IVec S_ 1 :=
  let main_c_5 : IVec S_ 1 := constantI S_ 1 1#1
  let main_v17 : IVec S_ 1 := (fun x v => Host.reduce IntOp.andi x v reducesTo_S800000x2_S_d0_1 h_S_) main_v16 main_c_5
  let main_v18 : IVec S_ 1 := andi main_v13 main_v17
  let main_v19 : FVec F S128x258 .f32 := Host.absf main_arg5
  let main_cst_6 : FVec F S_ .f32 := constant S_ .f32 0x7F800000#32
  let main_v20 : FVec F S128x258 .f32 := broadcastInDim S128x258 ![] bcast_S_S128x258 main_cst_6
  let main_v21 : IVec S128x258 1 := cmpf .olt main_v19 main_v20
  let main_c_7 : IVec S_ 1 := constantI S_ 1 1#1
  let main_v22 : IVec S_ 1 := (fun x v => Host.reduce IntOp.andi x v reducesTo_S128x258_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : FVec F S50000x3 .f32) (main_arg2 : IVec S2x800000 32) (main_arg3 : FVec F S800000x3 .f32) (main_arg4 : FVec F S800000x2 .f32) (main_arg5 : FVec F S128x258 .f32) (main_arg6 : FVec F S128 .f32) (main_arg7 : FVec F S128x128 .f32) (main_arg8 : FVec F S128 .f32) (main_arg9 : FVec F S1x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S800000x3 .f32 := Host.absf main_arg3
  let main_cst_2 : FVec F S_ .f32 := constant S_ .f32 0x7F800000#32
  let main_v10 : FVec F S800000x3 .f32 := broadcastInDim S800000x3 ![] bcast_S_S800000x3 main_cst_2
  let main_v11 : IVec S800000x3 1 := cmpf .olt main_v9 main_v10
  let main_c_3 : IVec S_ 1 := constantI S_ 1 1#1
  let main_v12 : IVec S_ 1 := (fun x v => Host.reduce IntOp.andi x v reducesTo_S800000x3_S_d0_1 h_S_) main_v11 main_c_3
  let main_v13 : IVec S_ 1 := andi main_v8 main_v12
  let main_v14 : FVec F S800000x2 .f32 := Host.absf main_arg4
  let main_cst_4 : FVec F S_ .f32 := constant S_ .f32 0x7F800000#32
  let main_v15 : FVec F S800000x2 .f32 := broadcastInDim S800000x2 ![] bcast_S_S800000x2 main_cst_4
  let main_v16 : IVec S800000x2 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S800000x3 : Shape := ⟨2, ![800000, 3]⟩
abbrev S800000x2 : Shape := ⟨2, ![800000, 2]⟩
abbrev S128x258 : Shape := ⟨2, ![128, 258]⟩
abbrev S128 : Shape := ⟨1, ![128]⟩
abbrev S128x128 : Shape := ⟨2, ![128, 128]⟩
abbrev S1x128 : Shape := ⟨2, ![1, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S128x2 : Shape := ⟨2, ![128, 2]⟩
abbrev S2x128 : Shape := ⟨2, ![2, 128]⟩
abbrev S4000x128 : Shape := ⟨2, ![4000, 128]⟩
abbrev S4000x2 : Shape := ⟨2, ![4000, 2]⟩
abbrev S4000x3 : Shape := ⟨2, ![4000, 3]⟩
abbrev S4000 : Shape := ⟨1, ![4000]⟩
abbrev S4000x1 : Shape := ⟨2, ![4000, 1]⟩

abbrev nBuf : Space → Nat
  | .hbm => 54
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S800000x3, .f32⟩
  | .hbm, ⟨4, _⟩ => ⟨S800000x2, .f32⟩
  | .hbm, ⟨5, _⟩ => ⟨S128x258, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000x128, .bf16⟩
  | .hbm, ⟨15, _⟩ => ⟨S800000x2, .bf16⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .bf16⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .bf16⟩
  | .hbm, ⟨34, _⟩ => ⟨S128x258, .bf16⟩
  | .hbm, ⟨35, _⟩ => ⟨S128x128, .bf16⟩
  | .hbm, ⟨36, _⟩ => ⟨S128x128, .bf16⟩
  | .hbm, ⟨37, _⟩ => ⟨S128x128, .bf16⟩
  | .hbm, ⟨38, _⟩ => ⟨S128x128, .bf16⟩
  | .hbm, ⟨39, _⟩ => ⟨S128x2, .bf16⟩
  | .hbm, ⟨40, _⟩ => ⟨S2x128, .bf16⟩
  | .hbm, ⟨41, _⟩ => ⟨S128x128, .bf16⟩
  | .hbm, ⟨42, _⟩ => ⟨S128x128, .bf16⟩
  | .hbm, ⟨43, _⟩ => ⟨S1x128, .f32⟩
  | .hbm, ⟨44, _⟩ => ⟨S1x128, .f32⟩
  | .hbm, ⟨45, _⟩ => ⟨S800000x3, .f32⟩
  | .hbm, ⟨46, _⟩ => ⟨S_, .f32⟩
  | .hbm, ⟨47, _⟩ => ⟨S50000x3, .f32⟩
  | .hbm, ⟨48, _⟩ => ⟨S800000x1, .i32⟩
  | .hbm, ⟨49, _⟩ => ⟨S50000x3, .f32⟩
  | .hbm, ⟨50, _⟩ => ⟨S_, .f32⟩
  | .hbm, ⟨51, _⟩ => ⟨S50000x3, .f32⟩
  | .hbm, ⟨52, _⟩ => ⟨S50000x3, .f32⟩
  | .hbm, ⟨53, _⟩ => ⟨S50000x3, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x2, .bf16⟩
  | .local _ .vmem, ⟨5, _⟩ => ⟨S4000x2, .bf16⟩
  | .local _ .vmem, ⟨6, _⟩ => ⟨S4000x3, .f32⟩
  | .local _ .vmem, ⟨7, _⟩ => ⟨S4000x3, .f32⟩
  | .local _ .vmem, ⟨8, _⟩ => ⟨S128x128, .bf16⟩
  | .local _ .vmem, ⟨9, _⟩ => ⟨S128x128, .bf16⟩
  | .local _ .vmem, ⟨10, _⟩ => ⟨S2x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S1x128, .f32⟩
  | .local _ .vmem, ⟨15, _⟩ => ⟨S4000x3, .f32⟩
  | .local _ .vmem, ⟨16, _⟩ => ⟨S4000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x2 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S128x258_S128x128_0_0 : S128x258.Slices ![0, 0] S128x128
  transposes_S128x128_S128x128_1_0 : S128x128.Transposes [1, 0] S128x128
  slices_S128x258_S128x128_0_128 : S128x258.Slices ![0, 128] S128x128
  slices_S128x258_S128x2_0_256 : S128x258.Slices ![0, 256] S128x2
  transposes_S128x2_S2x128_1_0 : S128x2.Transposes [1, 0] S2x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  inb_S4000x3_S4000x3_0_0 : ∀ a, (![0, 0] : Fin 2 → Nat) a + S4000x3.size a ≤ S4000x3.size a
  h_S4000x3 : 0 < S4000x3.numel
  broadcasts_S4000x1_S4000x3 : S4000x1.Broadcasts S4000x3
  bcast_S_S50000x3 : S_.BroadcastsInDim S50000x3 (![] : Fin 0 → Fin S50000x3.rank)
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  dot_S4000x2_S2x128_S4000x128_1_0_0_1_n_n_wf : DotDims.WF S4000x2 S2x128 S4000x128 [1] [0] [0] [1] [] []
  scatter_S50000x3_S800000x1_S800000x3_1_0_0_1_wf : ScatterDims.WF S50000x3 S800000x1 S800000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .bf16 = 32 ∨ (Rect.block (s := S800000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .bf16 = 32 ∨ (Rect.block (s := S800000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x2.size a ≤ S800000x2.size a
  hwx0_2 : ∀ i : grid0.Coords, EltTy.bits .bf16 = 32 ∨ (Rect.block (s := S800000x2) S4000x2.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x3.size a ≤ S800000x3.size a
  hwx0_3 : ∀ i : grid0.Coords, EltTy.bits .f32 = 32 ∨ (Rect.block (s := S800000x3) S4000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x128.size a ≤ S2x128.size a
  hwx0_6 : ∀ i : grid0.Coords, EltTy.bits .bf16 = 32 ∨ (Rect.block (s := S2x128) S2x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x3.size a ≤ S800000x3.size a
  hwx0_11 : ∀ i : grid0.Coords, EltTy.bits .f32 = 32 ∨ (Rect.block (s := S800000x3) S4000x3.size (cc0_transform_11 i) (hinb0_11 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x2_S2x128_S4000x128_1_0_0_1_n_n : DotDims S4000x2 S2x128 S4000x128 where
  lhsContracting := [1]
  rhsContracting := [0]
  lhsNonContracting := [0]
  rhsNonContracting := [1]
  lhsBatch := []
  rhsBatch := []
  wf := dot_S4000x2_S2x128_S4000x128_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

abbrev win0_0 : Pipeline.Window sig grid0 :=
  Pipeline.Window.ofSpec (Memref.whole main_v12) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S2x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v31) S4000x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S800000x3 : Shape := ⟨2, ![800000, 3]⟩
abbrev S800000x2 : Shape := ⟨2, ![800000, 2]⟩
abbrev S128x258 : Shape := ⟨2, ![128, 258]⟩
abbrev S128 : Shape := ⟨1, ![128]⟩
abbrev S128x128 : Shape := ⟨2, ![128, 128]⟩
abbrev S1x128 : Shape := ⟨2, ![1, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x258 : Shape := ⟨2, ![800000, 258]⟩
abbrev S258x128 : Shape := ⟨2, ![258, 128]⟩
abbrev S128x1 : Shape := ⟨2, ![128, 1]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S800000x3, .f32⟩
  | .hbm, ⟨4, _⟩ => ⟨S800000x2, .f32⟩
  | .hbm, ⟨5, _⟩ => ⟨S128x258, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S800000x258, .f32⟩
  | .hbm, ⟨33, _⟩ => ⟨S258x128, .f32⟩
  | .hbm, ⟨34, _⟩ => ⟨S800000x128, .f32⟩
  | .hbm, ⟨35, _⟩ => ⟨S1x128, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S800000x128, .f32⟩
  | .hbm, ⟨45, _⟩ => ⟨S800000x128, .f32⟩
  | .hbm, ⟨46, _⟩ => ⟨S800000x128, .f32⟩
  | .hbm, ⟨47, _⟩ => ⟨S128x128, .f32⟩
  | .hbm, ⟨48, _⟩ => ⟨S800000x128, .f32⟩
  | .hbm, ⟨49, _⟩ => ⟨S1x128, .f32⟩
  | .hbm, ⟨50, _⟩ => ⟨S800000x128, .f32⟩
  | .hbm, ⟨51, _⟩ => ⟨S800000x128, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S128x1, .f32⟩
  | .hbm, ⟨62, _⟩ => ⟨S800000x1, .f32⟩
  | .hbm, ⟨63, _⟩ => ⟨S800000x1, .f32⟩
  | .hbm, ⟨64, _⟩ => ⟨S800000x3, .f32⟩
  | .hbm, ⟨65, _⟩ => ⟨S800000x3, .f32⟩
  | .hbm, ⟨66, _⟩ => ⟨S_, .f32⟩
  | .hbm, ⟨67, _⟩ => ⟨S800000x3, .f32⟩
  | .hbm, ⟨68, _⟩ => ⟨S800000x3, .f32⟩
  | .hbm, ⟨69, _⟩ => ⟨S_, .f32⟩
  | .hbm, ⟨70, _⟩ => ⟨S50000x3, .f32⟩
  | .hbm, ⟨71, _⟩ => ⟨S800000x1, .i32⟩
  | .hbm, ⟨72, _⟩ => ⟨S50000x3, .f32⟩
  | .hbm, ⟨73, _⟩ => ⟨S_, .f32⟩
  | .hbm, ⟨74, _⟩ => ⟨S50000x3, .f32⟩
  | .hbm, ⟨75, _⟩ => ⟨S50000x3, .f32⟩
  | .hbm, ⟨76, _⟩ => ⟨S50000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst : Ref sig .tc := ⟨.hbm, 66, rfl⟩
abbrev main_v36 : Ref sig .tc := ⟨.hbm, 67, rfl⟩
abbrev main_v37 : Ref sig .tc := ⟨.hbm, 68, rfl⟩
abbrev main_cst_3 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_4 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x2_S800000x258_d1 : Shape.Concatenates [S800000x128, S800000x128, S800000x2] S800000x258 1
  transposes_S128x258_S258x128_1_0 : S128x258.Transposes [1, 0] S258x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  transposes_S128x128_S128x128_1_0 : S128x128.Transposes [1, 0] S128x128
  transposes_S1x128_S128x1_1_0 : S1x128.Transposes [1, 0] S128x1
  bcast_S800000x1_S800000x3_0_1 : S800000x1.BroadcastsInDim S800000x3 (![0, 1] : Fin 2 → Fin S800000x3.rank)
  bcast_S_S800000x3 : S_.BroadcastsInDim S800000x3 (![] : Fin 0 → Fin S800000x3.rank)
  bcast_S_S50000x3 : S_.BroadcastsInDim S50000x3 (![] : Fin 0 → Fin S50000x3.rank)
  gather_S50000x128_S800000x1_S800000x128_1_0_n_n_0_1_1128_wf : GatherDims.WF S50000x128 S800000x1 S800000x128 [1] [0] [] [0] [] 1 ![1, 128]
  dot_S800000x258_S258x128_S800000x128_1_0_0_1_n_n_wf : DotDims.WF S800000x258 S258x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x258_S258x128_S800000x128_1_0_0_1_n_n : DotDims S800000x258 S258x128 S800000x128 where
  lhsContracting := [1]
  rhsContracting := [0]
  lhsNonContracting := [0]
  rhsNonContracting := [1]
  lhsBatch := []
  rhsBatch := []
  wf := dot_S800000x258_S258x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.EdgeGate.lean ====
/-
  The per-edge scalar both programs compute, stated once on the extended reals.

  For one edge the inputs are the two gathered node rows `hr`, `hc` (128 entries each) and the edge's two attributes `ea`.
  A first layer forms, for each of 128 hidden units `j`,
      z₁ j = Σ_i hr i · wa i j + Σ_i hc i · wb i j + Σ_i ea i · wc i j + b₁ j
  and applies `silu z = z · σ(z)`; a second layer does the same through a 128 × 128 matrix `w₂` and bias `b₂`; the result is
  contracted with a row `w₃`, passed through `tanh` and scaled by a constant `κ`.  One program keeps the first layer's three
  sums apart (the weight matrix cut into three column bands), the other contracts the joined row of 258 entries with the
  whole matrix: the two agree because a sum over 258 consecutive positions is the sum over its first 128, its next 128 and its
  last 2 (`sum_bands`), which needs only that addition is commutative and associative — true on the extended reals with no
  finiteness assumption.
-/
import Idealize.ShloMosaic.PureOps.Ideal
import Idealize.ShloMosaic.Lib.ValueIdx
import Mathlib.Algebra.BigOperators.Fin

noncomputable section

namespace Cert.EdgeGate

open Idealize.ShloMosaic Idealize.ShloMosaic.ValueIdx

/-- `silu z = z · σ(z)`, with `σ` the logistic function extended to ±∞ by its limits. -/
def silu (z : EReal) : EReal := z * Ideal.logistic z

/-- The first layer's pre-activation at hidden unit `j`, the three bands kept apart. -/
def pre1 (hr hc : Fin 128 → EReal) (ea : Fin 2 → EReal) (wa wb : Fin 128 → Fin 128 → EReal) (wc : Fin 2 → Fin 128 → EReal)
    (b1 : Fin 128 → EReal) (j : Fin 128) : EReal :=
  ((∑ i : Fin 128, hr i * wa i j) + (∑ i : Fin 128, hc i * wb i j)) + (∑ i : Fin 2, ea i * wc i j) + b1 j

/-- The second layer's pre-activation at unit `k`, from the first layer's activations `h1`. -/
def pre2 (h1 : Fin 128 → EReal) (w2 : Fin 128 → Fin 128 → EReal) (b2 : Fin 128 → EReal) (k : Fin 128) : EReal :=
  (∑ j : Fin 128, h1 j * w2 j k) + b2 k

/-- The edge's gate: `tanh` of the contraction of the second layer's activations with `w3`, times `κ`. -/
def gate (κ : EReal) (hr hc : Fin 128 → EReal) (ea : Fin 2 → EReal) (wa wb : Fin 128 → Fin 128 → EReal)
    (wc : Fin 2 → Fin 128 → EReal) (b1 : Fin 128 → EReal) (w2 : Fin 128 → Fin 128 → EReal) (b2 w3 : Fin 128 → EReal) : EReal :=
  Ideal.tanh (∑ k : Fin 128, silu (pre2 (fun j => silu (pre1 hr hc ea wa wb wc b1 j)) w2 b2 k) * w3 k) * κ

/-- A sum over 258 consecutive positions is the sum over the first 128, the next 128 and the last 2. -/
theorem sum_bands {M : Type*} [AddCommMonoid M] (f : Fin 258 → M) :
    ∑ i : Fin 258, f i
      = ((∑ i : Fin 128, f ⟨i.val, by omega⟩) + (∑ i : Fin 128, f ⟨128 + i.val, by omega⟩))
        + ∑ i : Fin 2, f ⟨256 + i.val, by omega⟩ := by
  have h := Fin.sum_univ_add (a := 128 + 128) (b := 2) (f : Fin (128 + 128 + 2) → M)
  have h' := Fin.sum_univ_add (a := 128) (b := 128) (fun i => f (Fin.castAdd 2 i))
  exact h.trans (congrArg₂ (· + ·) h' rfl)

/-! ## The whole edge transform, over the model's own arrays -/

/-- A two-axis array and a one-axis array of extended reals, over literal extents. -/
abbrev Arr (a b : Nat) : Type := (⟨2, ![a, b]⟩ : Shape).Idx → EReal
abbrev Arr1 (a : Nat) : Type := (⟨1, ![a]⟩ : Shape).Idx → EReal

/-- The edge an index of an `[800000, ·]` array belongs to. -/
abbrev edgeOf {n : Nat} (i : (⟨2, ![800000, n]⟩ : Shape).Idx) : Fin 800000 := ⟨(i 0).val, idx2_lt0 i⟩

/-- Positions `i`, `128 + i` and `256 + i` of a row of 258 entries: the three bands of the first layer's input. -/
abbrev band0 (i : Fin 128) : Fin 258 := ⟨i.val, by have := i.isLt; omega⟩
abbrev band1 (i : Fin 128) : Fin 258 := ⟨128 + i.val, by have := i.isLt; omega⟩
abbrev band2 (i : Fin 2) : Fin 258 := ⟨256 + i.val, by have := i.isLt; omega⟩

/-- THE EDGE TRANSFORM as a function of the gathered node rows `GR`, `GC` (one row per edge), the edge attributes, the
    coordinate differences and the model's weights as the model holds them (`W1` hidden unit × input position, `W2` unit × unit,
    `W3` one row): at edge `e` and column `c`, the coordinate difference there times the edge's gate. -/
def edgeTrans (κ : EReal) (GR GC : Arr 800000 128) (EA : Arr 800000 2) (CD : Arr 800000 3) (W1 : Arr 128 258) (b1 : Arr1 128)
    (W2 : Arr 128 128) (b2 : Arr1 128) (W3 : Arr 1 128) : Arr 800000 3 := fun i =>
  CD i * gate κ (fun k => GR (ix2 (edgeOf i) k)) (fun k => GC (ix2 (edgeOf i) k)) (fun k => EA (ix2 (edgeOf i) k))
    (fun a j => W1 (ix2 j (band0 a))) (fun a j => W1 (ix2 j (band1 a))) (fun a j => W1 (ix2 j (band2 a)))
    (fun j => b1 (ix1 j)) (fun j k => W2 (ix2 k j)) (fun k => b2 (ix1 k)) (fun k => W3 (ix2 (0 : Fin 1) k))

end Cert.EdgeGate

end
-- ==== Proof.BlockProduct.lean ====
/-
  A block product read at an entry.  A 4000-row block times a matrix with 128 columns, accumulated into zero, has at row `r`
  and column `j` the plain sum over the contracted position of the row's entry times the matrix's entry in column `j`: on the
  extended reals a matrix product is that sum, with no rounding and no order.  Stated for the two contraction lengths the
  body uses, 128 and 2; the four short lemmas before each say which coordinate of an operand's index comes from the output
  index and which from the contracted position.
-/
import proofs.«149462_j901943132401_2_alg».proof.Proof.Gen.KernelIdeal.Skeleton
import Idealize.ShloMosaic.Lib.ValueIdx
import Idealize.ShloMosaic.PureOps.Ideal.Laws

noncomputable section

namespace Cert.KernelIdeal.BlockProduct

open Cert.KernelIdeal Idealize.ShloMosaic Idealize.ShloMosaic.ValueIdx

theorem matmul128_apply_l0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem matmul128_apply_l1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem matmul128_apply_r0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem matmul128_apply_r1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- A `[4000, 128]` block times a `[128, 128]` matrix, into zero, at `(r, j)`: the sum over the 128 contracted positions. -/
theorem matmul128_apply (x : FVec Ideal S4000x128 .bf16) (w : FVec Ideal S128x128 .bf16) (r : Fin 4000) (j : Fin 128) :
    matmul dot_S4000x128_S128x128_S4000x128_1_0_0_1_n_n none x w (constant (F := Ideal) S4000x128 .f32 0x00000000#32) (ix2 r j)
      = ∑ i : Fin 128, x (ix2 r i) * w (ix2 i j) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r j) ((contrEquiv1 dot_S4000x128_S128x128_S4000x128_1_0_0_1_n_n 128 rfl rfl).symm k) = ix2 r k :=
    funext fun a => Fin.ext (by
      match a with
      | ⟨0, _⟩ => exact matmul128_apply_l0 _ _
      | ⟨1, _⟩ => exact (matmul128_apply_l1 _ _).trans hk)
  have er : dot_S4000x128_S128x128_S4000x128_1_0_0_1_n_n.rhsIdx (ix2 r j) ((contrEquiv1 dot_S4000x128_S128x128_S4000x128_1_0_0_1_n_n 128 rfl rfl).symm k) = ix2 k j :=
    funext fun a => Fin.ext (by
      match a with
      | ⟨0, _⟩ => exact (matmul128_apply_r0 _ _).trans hk
      | ⟨1, _⟩ => exact matmul128_apply_r1 _ _)
  rw [el, er]

theorem matmul2_apply_l0 (i : S4000x128.Idx) (q : dot_S4000x2_S2x128_S4000x128_1_0_0_1_n_n.contr.Idx) : (dot_S4000x2_S2x128_S4000x128_1_0_0_1_n_n.lhsIdx i q 0).val = (i 0).val := by
  unfold DotDims.lhsIdx
  rw [dif_neg (show ¬(0 : Fin S4000x2.rank) ∈ dot_S4000x2_S2x128_S4000x128_1_0_0_1_n_n.lhsBatch by decide),
    dif_pos (show (0 : Fin S4000x2.rank) ∈ dot_S4000x2_S2x128_S4000x128_1_0_0_1_n_n.lhsNonContracting by decide)]
  rfl
theorem matmul2_apply_l1 (i : S4000x128.Idx) (q : dot_S4000x2_S2x128_S4000x128_1_0_0_1_n_n.contr.Idx) : (dot_S4000x2_S2x128_S4000x128_1_0_0_1_n_n.lhsIdx i q 1).val = (q ⟨0, by decide⟩).val :=
  dot_S4000x2_S2x128_S4000x128_1_0_0_1_n_n.lhsIdx_val_of_single rfl i q
theorem matmul2_apply_r0 (i : S4000x128.Idx) (q : dot_S4000x2_S2x128_S4000x128_1_0_0_1_n_n.contr.Idx) : (dot_S4000x2_S2x128_S4000x128_1_0_0_1_n_n.rhsIdx i q 0).val = (q ⟨0, by decide⟩).val :=
  dot_S4000x2_S2x128_S4000x128_1_0_0_1_n_n.rhsIdx_val_of_single rfl i q
theorem matmul2_apply_r1 (i : S4000x128.Idx) (q : dot_S4000x2_S2x128_S4000x128_1_0_0_1_n_n.contr.Idx) : (dot_S4000x2_S2x128_S4000x128_1_0_0_1_n_n.rhsIdx i q 1).val = (i 1).val := by
  unfold DotDims.rhsIdx
  rw [dif_neg (show ¬(1 : Fin S2x128.rank) ∈ dot_S4000x2_S2x128_S4000x128_1_0_0_1_n_n.rhsBatch by decide),
    dif_pos (show (1 : Fin S2x128.rank) ∈ dot_S4000x2_S2x128_S4000x128_1_0_0_1_n_n.rhsNonContracting by decide)]
  rfl

/-- A `[4000, 2]` block times a `[2, 128]` matrix, into zero, at `(r, j)`: the sum over the 2 contracted positions. -/
theorem matmul2_apply (x : FVec Ideal S4000x2 .bf16) (w : FVec Ideal S2x128 .bf16) (r : Fin 4000) (j : Fin 128) :
    matmul dot_S4000x2_S2x128_S4000x128_1_0_0_1_n_n none x w (constant (F := Ideal) S4000x128 .f32 0x00000000#32) (ix2 r j)
      = ∑ i : Fin 2, x (ix2 r i) * w (ix2 i j) := by
  simp only [matmul]
  rw [Ideal.matmul_constant_zero_apply, ← Equiv.sum_comp (contrEquiv1 dot_S4000x2_S2x128_S4000x128_1_0_0_1_n_n 2 rfl rfl).symm]
  refine Finset.sum_congr rfl fun k _ => ?_
  have hk := contrEquiv1_symm_val dot_S4000x2_S2x128_S4000x128_1_0_0_1_n_n 2 rfl rfl k
  have el : dot_S4000x2_S2x128_S4000x128_1_0_0_1_n_n.lhsIdx (ix2 r j) ((contrEquiv1 dot_S4000x2_S2x128_S4000x128_1_0_0_1_n_n 2 rfl rfl).symm k) = ix2 r k :=
    funext fun a => Fin.ext (by
      match a with
      | ⟨0, _⟩ => exact matmul2_apply_l0 _ _
      | ⟨1, _⟩ => exact (matmul2_apply_l1 _ _).trans hk)
  have er : dot_S4000x2_S2x128_S4000x128_1_0_0_1_n_n.rhsIdx (ix2 r j) ((contrEquiv1 dot_S4000x2_S2x128_S4000x128_1_0_0_1_n_n 2 rfl rfl).symm k) = ix2 k j :=
    funext fun a => Fin.ext (by
      match a with
      | ⟨0, _⟩ => exact (matmul2_apply_r0 _ _).trans hk
      | ⟨1, _⟩ => exact matmul2_apply_r1 _ _)
  rw [el, er]

end Cert.KernelIdeal.BlockProduct

end
-- ==== Proof.LibColumnLayout.lean ====
/-
  The layout operations a sum or a minimum taken with its reduced axis KEPT needs, read at an index given by its
  coordinates: a vector cast to a one-column matrix, a one-column matrix broadcast across columns, and a one-row matrix with
  a leading unit axis. (The leading-unit-axis casts and the one-row broadcast are in the library's layout file; these are
  the column forms beside them.) Each statement names both indices by their coordinates over literal extents.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.BodyValue.lean ====
/-
  What the kernel's body stores, read at one entry.  At row `r` and column `c` of a block of 4000 edges the stored value is
  the edge's coordinate difference at `(r, c)` times the edge's gate: the gate (Proof/EdgeGate.lean) of row `r` of the two
  gathered-feature blocks and of the attribute block, through the weight matrices the body loads whole.  The steps: each
  pointwise operation is read at the entry; a one-row bias broadcast over the rows is read at its row 0; each block product is
  the sum over the contracted position (Proof/BlockProduct.lean); the row sum of the second layer's activations times the
  last weight row is the sum over the 128 lanes; the kept unit axis and its broadcast across the three columns read the row's
  scalar back.
-/
import proofs.«149462_j901943132401_2_alg».proof.Proof.Gen.KernelIdeal.Skeleton
import proofs.«149462_j901943132401_2_alg».proof.Proof.EdgeGate
import proofs.«149462_j901943132401_2_alg».proof.Proof.BlockProduct
import proofs.«149462_j901943132401_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen Cert.KernelIdeal.BlockProduct Cert.EdgeGate
open Idealize.ShloMosaic Idealize.ShloMosaic.ValueIdx Idealize.ShloMosaic.ColumnLayout

/-- The scale the body multiplies `tanh` by: the word of the literal `15.0`, read on the extended reals. -/
abbrev κ : EReal := Ideal.ofBits .f32 0x41700000#32

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- A sum over the 128 lanes of a `[4000, 128]` block, read at row `r`. -/
theorem laneSum_apply (src : FVec Ideal S4000x128 .f32) (r : Fin 4000) :
    multiReduction .add [1] S4000 src 0x00000000#32 reduces_S4000x128_S4000 (.inl rfl) rfl (ix1 r)
      = ∑ k : Fin 128, src (ix2 r k) := by
  refine (Ideal.multiReduction_add_single src 0x00000000#32 reduces_S4000x128_S4000 (.inl rfl) rfl (ix1 r)).trans ?_
  exact Finset.sum_congr rfl fun k _ => congrArg src (funext fun a => by
    match a with
    | ⟨0, _⟩ => rfl
    | ⟨1, _⟩ => rfl)

/-- The second layer's activations at `(r, k)`. -/
theorem hidden2_apply (x0 x1 : FVec Ideal S4000x128 .bf16) (x2 : FVec Ideal S4000x2 .bf16) (x4 x5 : FVec Ideal S128x128 .bf16)
    (x6 : FVec Ideal S2x128 .bf16) (x7 : FVec Ideal S1x128 .f32) (x8 : FVec Ideal S128x128 .bf16) (x9 : FVec Ideal S1x128 .f32)
    (r : Fin 4000) (k : Fin 128) :
    k0_pay2 (F := Ideal) x0 x1 x2 x4 x5 x6 x7 x8 x9 (ix2 r k)
      = silu (pre2 (fun j => silu (pre1 (fun i => x0 (ix2 r i)) (fun i => x1 (ix2 r i)) (fun i => x2 (ix2 r i))
            (fun i j => x4 (ix2 i j)) (fun i j => x5 (ix2 i j)) (fun i j => x6 (ix2 i j)) (fun j => x7 (ix2 (0 : Fin 1) j)) j))
          (fun j k => x8 (ix2 j k)) (fun k => x9 (ix2 (0 : Fin 1) k)) k) := by
  simp only [k0_pay2, silu, pre1, pre2, shapeCast_self, mulf_apply, addf_apply, logistic_apply, truncf_apply,
    broadcastTo_1b_ab_apply, matmul128_apply, matmul2_apply]

/-- The stored value at `(r, c)`: the coordinate difference there times the edge's gate. -/
theorem stored_apply (x0 x1 : FVec Ideal S4000x128 .bf16) (x2 : FVec Ideal S4000x2 .bf16) (x3 : FVec Ideal S4000x3 .f32)
    (x4 x5 : FVec Ideal S128x128 .bf16) (x6 : FVec Ideal S2x128 .bf16) (x7 : FVec Ideal S1x128 .f32)
    (x8 : FVec Ideal S128x128 .bf16) (x9 x10 : FVec Ideal S1x128 .f32) (r : Fin 4000) (c : Fin 3) :
    k0_pay1 (F := Ideal) (k0_pay2 x0 x1 x2 x4 x5 x6 x7 x8 x9) (k0_pay3 x10) x3 (ix2 r c)
      = x3 (ix2 r c) * gate κ (fun i => x0 (ix2 r i)) (fun i => x1 (ix2 r i)) (fun i => x2 (ix2 r i))
            (fun i j => x4 (ix2 i j)) (fun i j => x5 (ix2 i j)) (fun i j => x6 (ix2 i j)) (fun j => x7 (ix2 (0 : Fin 1) j))
            (fun j k => x8 (ix2 j k)) (fun k => x9 (ix2 (0 : Fin 1) k)) (fun k => x10 (ix2 (0 : Fin 1) k)) := by
  simp only [k0_pay1, k0_pay3, gate, mulf_apply, broadcastTo_a1_ab_apply, broadcast_apply, tanh_apply,
    shapeCast_a_a1_apply]
  rw [laneSum_apply]
  simp only [mulf_apply, broadcastTo_1b_ab_apply, hidden2_apply]
  rfl

end Cert.KernelIdeal.BodyValue

end
-- ==== Proof.RegionValue.lean ====
/-
  The edge-transform array the region leaves.  The grid has 200 points; point `t` handles the 4000 edges `4000·t … 4000·t + 3999`:
  its blocks of the two gathered-feature arrays, of the attributes and of the coordinate differences are those rows, the
  weight matrices are loaded whole at every point, and it writes back rows `4000·t …` of the output.  So what point `t`
  writes back is block `t` of ONE array-wide function, `trans`: at edge `e` and column `c`, the coordinate difference
  there times the gate of edge `e` (Proof/EdgeGate.lean).  Every edge lies in exactly the block of point `e / 4000`, so the
  blocks cover the array and after the region the array IS `trans` of the arrays the region was entered with.
-/
import proofs.«149462_j901943132401_2_alg».proof.Proof.Gen.KernelIdeal.Frame
import proofs.«149462_j901943132401_2_alg».proof.Proof.BodyValue
import Idealize.ShloMosaic.Lib.Pipeline.Value
import Idealize.ShloMosaic.Lib.ValueIdx

set_option maxRecDepth 16384

noncomputable section

namespace Cert.KernelIdeal.RegionValue

open Cert.KernelIdeal Cert.KernelIdeal.Gen Cert.KernelIdeal.BodyValue Cert.EdgeGate
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The array-wide function: at edge `e`, column `c`, the coordinate difference times the edge's gate. -/
def trans (HR HC : S800000x128.Idx → EReal) (EA : S800000x2.Idx → EReal) (CD : S800000x3.Idx → EReal)
    (A4 A5 : S128x128.Idx → EReal) (A6 : S2x128.Idx → EReal) (A7 : S1x128.Idx → EReal) (A8 : S128x128.Idx → EReal)
    (A9 A10 : S1x128.Idx → EReal) : S800000x3.Idx → EReal := fun i =>
  CD i * gate κ (fun k => HR (ix2 (edgeOf i) k)) (fun k => HC (ix2 (edgeOf i) k)) (fun k => EA (ix2 (edgeOf i) k))
    (fun a b => A4 (ix2 a b)) (fun a b => A5 (ix2 a b)) (fun a b => A6 (ix2 a b)) (fun b => A7 (ix2 (0 : Fin 1) b))
    (fun a b => A8 (ix2 a b)) (fun b => A9 (ix2 (0 : Fin 1) b)) (fun b => A10 (ix2 (0 : Fin 1) b))

theorem hz : (![0, 0] : Fin 2 → Nat) = fun _ => 0 := funext fun a => by fin_cases a <;> rfl

theorem point_lt (t : Fin cfg0.N) : t.val < 200 := by
  have h : t.val < grid0.N := t.isLt
  have e : grid0.N = 200 := N_0
  omega

/-- Row `r` of point `t`'s blocks is edge `4000·t + r`. -/
abbrev edgeAt (t : Fin cfg0.N) (r : Fin 4000) : Fin 800000 :=
  ⟨t.val * 4000 + r.val, by have := point_lt t; have := r.isLt; omega⟩

/-- The printed index maps, decided over the 200 points: the edge-blocked windows sit at block `(t, 0)`, the weight windows at
    block `(0, 0)`. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_11.index t (0 : Fin 2) = t.val
    ∧ win0_11.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

/-- Window 0's block at point `t`, read at row `r`: the array's row `4000·t + r`. -/
theorem blk0_apply (c : Dev nD) (t : Fin cfg0.N) (r : Fin 4000) (k : Fin 128) :
    iblk m c 0 t (ix2 r k) = V m c main_v12 (ix2 (edgeAt t r) k) := by
  obtain ⟨e0_0, e0_1, e1_0, e1_1, e2_0, e2_1, e3_0, e3_1, e11_0, e11_1, e4_0, e4_1, e5_0, e5_1, e6_0, e6_1, e7_0, e7_1, e8_0, e8_1, e9_0, e9_1, e10_0, e10_1⟩ := idx_facts t
  show V m c main_v12 (((cfg0.win 0).blk t).view.emb (ix2 r k)) = _
  refine congrArg (V m c main_v12) (funext fun a => Fin.ext ?_)
  match a with
  | ⟨0, _⟩ => show win0_0.index t (0 : Fin 2) * 4000 + 1 * r.val = t.val * 4000 + r.val; omega
  | ⟨1, _⟩ => show win0_0.index t (1 : Fin 2) * 128 + 1 * k.val = k.val; omega

/-- Window 1's block at point `t`, read at row `r`: the array's row `4000·t + r`. -/
theorem blk1_apply (c : Dev nD) (t : Fin cfg0.N) (r : Fin 4000) (k : Fin 128) :
    iblk m c 1 t (ix2 r k) = V m c main_v19 (ix2 (edgeAt t r) k) := by
  obtain ⟨e0_0, e0_1, e1_0, e1_1, e2_0, e2_1, e3_0, e3_1, e11_0, e11_1, e4_0, e4_1, e5_0, e5_1, e6_0, e6_1, e7_0, e7_1, e8_0, e8_1, e9_0, e9_1, e10_0, e10_1⟩ := idx_facts t
  show V m c main_v19 (((cfg0.win 1).blk t).view.emb (ix2 r k)) = _
  refine congrArg (V m c main_v19) (funext fun a => Fin.ext ?_)
  match a with
  | ⟨0, _⟩ => show win0_1.index t (0 : Fin 2) * 4000 + 1 * r.val = t.val * 4000 + r.val; omega
  | ⟨1, _⟩ => show win0_1.index t (1 : Fin 2) * 128 + 1 * k.val = k.val; omega

/-- Window 2's block at point `t`, read at row `r`: the array's row `4000·t + r`. -/
theorem blk2_apply (c : Dev nD) (t : Fin cfg0.N) (r : Fin 4000) (k : Fin 2) :
    iblk m c 2 t (ix2 r k) = V m c main_v5 (ix2 (edgeAt t r) k) := by
  obtain ⟨e0_0, e0_1, e1_0, e1_1, e2_0, e2_1, e3_0, e3_1, e11_0, e11_1, e4_0, e4_1, e5_0, e5_1, e6_0, e6_1, e7_0, e7_1, e8_0, e8_1, e9_0, e9_1, e10_0, e10_1⟩ := idx_facts t
  show V m c main_v5 (((cfg0.win 2).blk t).view.emb (ix2 r k)) = _
  refine congrArg (V m c main_v5) (funext fun a => Fin.ext ?_)
  match a with
  | ⟨0, _⟩ => show win0_2.index t (0 : Fin 2) * 4000 + 1 * r.val = t.val * 4000 + r.val; omega
  | ⟨1, _⟩ => show win0_2.index t (1 : Fin 2) * 2 + 1 * k.val = k.val; omega

/-- Window 3's block at point `t`, read at row `r`: the array's row `4000·t + r`. -/
theorem blk3_apply (c : Dev nD) (t : Fin cfg0.N) (r : Fin 4000) (k : Fin 3) :
    iblk m c 3 t (ix2 r k) = V m c main_arg3 (ix2 (edgeAt t r) k) := by
  obtain ⟨e0_0, e0_1, e1_0, e1_1, e2_0, e2_1, e3_0, e3_1, e11_0, e11_1, e4_0, e4_1, e5_0, e5_1, e6_0, e6_1, e7_0, e7_1, e8_0, e8_1, e9_0, e9_1, e10_0, e10_1⟩ := idx_facts t
  show V m c main_arg3 (((cfg0.win 3).blk t).view.emb (ix2 r k)) = _
  refine congrArg (V m c main_arg3) (funext fun a => Fin.ext ?_)
  match a with
  | ⟨0, _⟩ => show win0_3.index t (0 : Fin 2) * 4000 + 1 * r.val = t.val * 4000 + r.val; omega
  | ⟨1, _⟩ => show win0_3.index t (1 : Fin 2) * 3 + 1 * k.val = k.val; omega

/-- Window 4's block at every point is its whole array. -/
theorem blk4_eq (c : Dev nD) (t : Fin cfg0.N) : iblk m c 4 t = V m c main_v22 := by
  obtain ⟨e0_0, e0_1, e1_0, e1_1, e2_0, e2_1, e3_0, e3_1, e11_0, e11_1, e4_0, e4_1, e5_0, e5_1, e6_0, e6_1, e7_0, e7_1, e8_0, e8_1, e9_0, e9_1, e10_0, e10_1⟩ := idx_facts t
  funext y
  show V m c main_v22 (((cfg0.win 4).blk t).view.emb y) = V m c main_v22 y
  refine congrArg (V m c main_v22) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5's block at every point is its whole array. -/
theorem blk5_eq (c : Dev nD) (t : Fin cfg0.N) : iblk m c 5 t = V m c main_v24 := by
  obtain ⟨e0_0, e0_1, e1_0, e1_1, e2_0, e2_1, e3_0, e3_1, e11_0, e11_1, e4_0, e4_1, e5_0, e5_1, e6_0, e6_1, e7_0, e7_1, e8_0, e8_1, e9_0, e9_1, e10_0, e10_1⟩ := idx_facts t
  funext y
  show V m c main_v24 (((cfg0.win 5).blk t).view.emb y) = V m c main_v24 y
  refine congrArg (V m c main_v24) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6's block at every point is its whole array. -/
theorem blk6_eq (c : Dev nD) (t : Fin cfg0.N) : iblk m c 6 t = V m c main_v26 := by
  obtain ⟨e0_0, e0_1, e1_0, e1_1, e2_0, e2_1, e3_0, e3_1, e11_0, e11_1, e4_0, e4_1, e5_0, e5_1, e6_0, e6_1, e7_0, e7_1, e8_0, e8_1, e9_0, e9_1, e10_0, e10_1⟩ := idx_facts t
  funext y
  show V m c main_v26 (((cfg0.win 6).blk t).view.emb y) = V m c main_v26 y
  refine congrArg (V m c main_v26) (funext fun a => Fin.ext ?_)
  match a with
  | ⟨0, _⟩ => show win0_6.index t (0 : Fin 2) * 2 + 1 * (y 0).val = (y 0).val; omega
  | ⟨1, _⟩ => show win0_6.index t (1 : Fin 2) * 128 + 1 * (y 1).val = (y 1).val; omega

/-- Window 7's block at every point is its whole array. -/
theorem blk7_eq (c : Dev nD) (t : Fin cfg0.N) : iblk m c 7 t = V m c main_v29 := by
  obtain ⟨e0_0, e0_1, e1_0, e1_1, e2_0, e2_1, e3_0, e3_1, e11_0, e11_1, e4_0, e4_1, e5_0, e5_1, e6_0, e6_1, e7_0, e7_1, e8_0, e8_1, e9_0, e9_1, e10_0, e10_1⟩ := idx_facts t
  funext y
  show V m c main_v29 (((cfg0.win 7).blk t).view.emb y) = V m c main_v29 y
  refine congrArg (V m c main_v29) (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- Window 8's block at every point is its whole array. -/
theorem blk8_eq (c : Dev nD) (t : Fin cfg0.N) : iblk m c 8 t = V m c main_v28 := by
  obtain ⟨e0_0, e0_1, e1_0, e1_1, e2_0, e2_1, e3_0, e3_1, e11_0, e11_1, e4_0, e4_1, e5_0, e5_1, e6_0, e6_1, e7_0, e7_1, e8_0, e8_1, e9_0, e9_1, e10_0, e10_1⟩ := idx_facts t
  funext y
  show V m c main_v28 (((cfg0.win 8).blk t).view.emb y) = V m c main_v28 y
  refine congrArg (V m c main_v28) (funext fun a => Fin.ext ?_)
  match a with
  | ⟨0, _⟩ => show win0_8.index t (0 : Fin 2) * 128 + 1 * (y 0).val = (y 0).val; omega
  | ⟨1, _⟩ => show win0_8.index t (1 : Fin 2) * 128 + 1 * (y 1).val = (y 1).val; omega

/-- Window 9's block at every point is its whole array. -/
theorem blk9_eq (c : Dev nD) (t : Fin cfg0.N) : iblk m c 9 t = V m c main_v30 := by
  obtain ⟨e0_0, e0_1, e1_0, e1_1, e2_0, e2_1, e3_0, e3_1, e11_0, e11_1, e4_0, e4_1, e5_0, e5_1, e6_0, e6_1, e7_0, e7_1, e8_0, e8_1, e9_0, e9_1, e10_0, e10_1⟩ := idx_facts t
  funext y
  show V m c main_v30 (((cfg0.win 9).blk t).view.emb y) = V m c main_v30 y
  refine congrArg (V m c main_v30) (funext fun a => Fin.ext ?_)
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- Window 10's block at every point is its whole array. -/
theorem blk10_eq (c : Dev nD) (t : Fin cfg0.N) : iblk m c 10 t = V m c main_arg9 := by
  obtain ⟨e0_0, e0_1, e1_0, e1_1, e2_0, e2_1, e3_0, e3_1, e11_0, e11_1, e4_0, e4_1, e5_0, e5_1, e6_0, e6_1, e7_0, e7_1, e8_0, e8_1, e9_0, e9_1, e10_0, e10_1⟩ := idx_facts t
  funext y
  show V m c main_arg9 (((cfg0.win 10).blk t).view.emb y) = V m c main_arg9 y
  refine congrArg (V m c main_arg9) (funext fun a => Fin.ext ?_)
  match a with
  | ⟨0, _⟩ => show win0_10.index t (0 : Fin 2) * 1 + 1 * (y 0).val = (y 0).val; omega
  | ⟨1, _⟩ => show win0_10.index t (1 : Fin 2) * 128 + 1 * (y 1).val = (y 1).val; omega

/-- Where row `r`, column `q` of point `t`'s output block sits in the output array. -/
theorem out_emb (t : Fin cfg0.N) (r : Fin 4000) (q : Fin 3) :
    ((cfg0.win 11).blk t).view.emb (ix2 r q) = ix2 (edgeAt t r) q := by
  obtain ⟨e0_0, e0_1, e1_0, e1_1, e2_0, e2_1, e3_0, e3_1, e11_0, e11_1, e4_0, e4_1, e5_0, e5_1, e6_0, e6_1, e7_0, e7_1, e8_0, e8_1, e9_0, e9_1, e10_0, e10_1⟩ := idx_facts t
  funext a; apply Fin.ext
  match a with
  | ⟨0, _⟩ => show win0_11.index t (0 : Fin 2) * 4000 + 1 * r.val = t.val * 4000 + r.val; omega
  | ⟨1, _⟩ => show win0_11.index t (1 : Fin 2) * 3 + 1 * q.val = q.val; omega

/-- WHAT POINT `t` WRITES BACK is block `t` of `trans` of the arrays as the region finds them. -/
theorem flushed_eq (c : Dev nD) (t : Fin cfg0.N) :
    (dats m 0 c).flushed 11 t = ((cfg0.win 11).blk t).view.read (Elt Ideal) (trans (V m c main_v12) (V m c main_v19) (V m c main_v5) (V m c main_arg3) (V m c main_v22) (V m c main_v24) (V m c main_v26) (V m c main_v29) (V m c main_v28) (V m c main_v30) (V m c main_arg9)) := by
  show (cfg0.win 11).cut (grid0.coords t) ((dats m 0 c).after 11 t) = _
  rw [after0_11]
  unfold out0_11
  rw [View.canon_unit_zero hz]
  simp only [View.ld_unit_zero (S := S4000x128) hz, View.ld_unit_zero (S := S4000x2) hz, View.ld_unit_zero (S := S4000x3) hz,
    View.ld_unit_zero (S := S128x128) hz, View.ld_unit_zero (S := S2x128) hz, View.ld_unit_zero (S := S1x128) hz]
  funext y
  obtain ⟨r, q, rfl⟩ : ∃ (r : Fin 4000) (q : Fin 3), y = ix2 r q := ⟨y 0, y 1, eq_ix2 y⟩
  refine (stored_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) r q).trans ?_
  show _ = trans (V m c main_v12) (V m c main_v19) (V m c main_v5) (V m c main_arg3) (V m c main_v22) (V m c main_v24) (V m c main_v26) (V m c main_v29) (V m c main_v28) (V m c main_v30) (V m c main_arg9) (((cfg0.win 11).blk t).view.emb (ix2 r q))
  rw [out_emb, blk4_eq, blk5_eq, blk6_eq, blk7_eq, blk8_eq, blk9_eq, blk10_eq, blk3_apply]
  simp only [blk0_apply, blk1_apply, blk2_apply]
  rfl

/-- An index of the output array is in point `t`'s block iff each coordinate is in the block's range on its axis. -/
theorem mem_blk (t : Fin cfg0.N) (i : S800000x3.Idx) :
    i ∈ ((cfg0.win 11).blk t).view.set ↔ ∀ a : Fin 2, win0_11.index t a * S4000x3.size a ≤ (i a).val ∧ (i a).val < win0_11.index t a * S4000x3.size a + S4000x3.size a := by
  show i ∈ ((View.whole main_v31).slice (win0_11.rect t)).set ↔ _
  rw [View.set_slice_whole, Rect.mem_set_unit]
  exact Iff.rfl

/-- Every entry of the output array is in the block of the point its edge belongs to. -/
theorem cover (i : S800000x3.Idx) : ∃ t : Fin cfg0.N, (cfg0.win 11).flush t = true ∧ i ∈ ((cfg0.win 11).blk t).view.set := by
  have hi0 : (i 0).val < 800000 := (i 0).isLt
  have hi1 : (i 1).val < 3 := (i 1).isLt
  obtain ⟨t, ht⟩ : ∃ t : Fin cfg0.N, t.val = (i 0).val / 4000 :=
    ⟨⟨(i 0).val / 4000, by show (i 0).val / 4000 < grid0.N; have e : grid0.N = 200 := N_0; omega⟩, rfl⟩
  obtain ⟨e0_0, e0_1, e1_0, e1_1, e2_0, e2_1, e3_0, e3_1, e11_0, e11_1, e4_0, e4_1, e5_0, e5_1, e6_0, e6_1, e7_0, e7_1, e8_0, e8_1, e9_0, e9_1, e10_0, e10_1⟩ := idx_facts t
  refine ⟨t, flush0_11 t, ?_⟩
  rw [mem_blk]
  intro a
  match a with
  | ⟨0, _⟩ => show win0_11.index t (0 : Fin 2) * 4000 ≤ (i 0).val ∧ (i 0).val < win0_11.index t (0 : Fin 2) * 4000 + 4000; omega
  | ⟨1, _⟩ => show win0_11.index t (1 : Fin 2) * 3 ≤ (i 1).val ∧ (i 1).val < win0_11.index t (1 : Fin 2) * 3 + 3; omega

/-- THE OUTPUT ARRAY after the region: `trans` of the arrays the region was entered with. -/
theorem final (c : Dev nD) : (dats m 0 c).arrAt 11 cfg0.N = trans (V m c main_v12) (V m c main_v19) (V m c main_v5) (V m c main_arg3) (V m c main_v22) (V m c main_v24) (V m c main_v26) (V m c main_v29) (V m c main_v28) (V m c main_v30) (V m c main_arg9) :=
  (dats m 0 c).arrAt_eq_of_cover 11 _ (fun t _ => flushed_eq m c t) cover

end Cert.KernelIdeal.RegionValue

end
-- ==== Proof.HostValue.lean ====
/-
  The kernel's program around its region.  Before the region the host prepares the region's operands from the arguments: the
  two rows of the edge-index array (negative entries wrapped by the node count) pick, for every edge, a row of the node
  features; the first layer's weight matrix is cut into its three column bands and each band transposed; the second layer's
  matrix is transposed; the two biases get a leading unit axis.  Changes of float format are the identity on the extended
  reals.  Read at an entry, each operand is therefore an entry of an ARGUMENT array, and the region's result (Proof/RegionValue.lean)
  is the edge transform (Proof/EdgeGate.lean `edgeTrans`) of the gathered rows and the arguments.  After the region the host adds,
  into zeros, every edge's transformed row at the edge's receiving node, divides by 100 and adds the node coordinates: `tailOf`.
-/
import proofs.«149462_j901943132401_2_alg».proof.Proof.Gen.KernelIdeal.Frame
import proofs.«149462_j901943132401_2_alg».proof.Proof.RegionValue
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostValue

open Cert.KernelIdeal Cert.KernelIdeal.Gen Cert.KernelIdeal.BodyValue Cert.KernelIdeal.RegionValue Cert.EdgeGate
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The host operations, named -/

/-- Row 0 of the edge-index array, as a vector: each edge's receiving node. -/
def recvRow (x2 : IVec S2x800000 32) : IVec S800000 32 :=
  shapeCast S800000 (extractStridedSlice S1x800000 ![0, 0] x2 slices_S2x800000_S1x800000_0_0) shapeCasts_S1x800000_S800000
/-- Row 1: each edge's sending node. -/
def sendRow (x2 : IVec S2x800000 32) : IVec S800000 32 :=
  shapeCast S800000 (extractStridedSlice S1x800000 ![1, 0] x2 slices_S2x800000_S1x800000_1_0) shapeCasts_S1x800000_S800000
/-- A vector of node numbers as a column of gather start indices: a negative number has the node count added. -/
def startIdx (R : IVec S800000 32) : IVec S800000x1 32 :=
  broadcastInDim S800000x1 ![0] bcast_S800000_S800000x1_0
    (select (cmpi .slt R (broadcastInDim S800000 ![] bcast_S_S800000 (constantI S_ 32 0#32)))
      (addi R (broadcastInDim S800000 ![] bcast_S_S800000 (constantI S_ 32 50000#32))) R)
/-- The node-feature rows the start indices pick, one per edge. -/
def rows (x0 : FVec Ideal S50000x128 .f32) (R : IVec S800000 32) : FVec Ideal S800000x128 .bf16 :=
  Host.gather gather_S50000x128_S800000x1_S800000x128_1_0_n_n_0_1_1128 (truncf .bf16 x0 bitsLt_bf16_f32) (startIdx R)
/-- The edge attributes in the region's float format: the same numbers. -/
def attrs (x4 : FVec Ideal S800000x2 .f32) : FVec Ideal S800000x2 .bf16 := truncf .bf16 x4 bitsLt_bf16_f32
/-- A band of the first layer's weights, transposed. -/
def bandA (x5 : FVec Ideal S128x258 .f32) : FVec Ideal S128x128 .bf16 :=
  transpose S128x128 [1, 0] (extractStridedSlice S128x128 ![0, 0] (truncf .bf16 x5 bitsLt_bf16_f32) slices_S128x258_S128x128_0_0) transposes_S128x128_S128x128_1_0
def bandB (x5 : FVec Ideal S128x258 .f32) : FVec Ideal S128x128 .bf16 :=
  transpose S128x128 [1, 0] (extractStridedSlice S128x128 ![0, 128] (truncf .bf16 x5 bitsLt_bf16_f32) slices_S128x258_S128x128_0_128) transposes_S128x128_S128x128_1_0
def bandC (x5 : FVec Ideal S128x258 .f32) : FVec Ideal S2x128 .bf16 :=
  transpose S2x128 [1, 0] (extractStridedSlice S128x2 ![0, 256] (truncf .bf16 x5 bitsLt_bf16_f32) slices_S128x258_S128x2_0_256) transposes_S128x2_S2x128_1_0
/-- The second layer's weights, transposed. -/
def w2T (x7 : FVec Ideal S128x128 .f32) : FVec Ideal S128x128 .bf16 :=
  transpose S128x128 [1, 0] (truncf .bf16 x7 bitsLt_bf16_f32) transposes_S128x128_S128x128_1_0
/-- A bias with a leading unit axis. -/
def biasRow (x : FVec Ideal S128 .f32) : FVec Ideal S1x128 .f32 := shapeCast S1x128 x shapeCasts_S128_S1x128

/-- What the host does after the region: every edge's row of `T` added, into zeros, at the edge's receiving node; the sums
    divided by 100; the node coordinates added. -/
def tailOf (x1 : FVec Ideal S50000x3 .f32) (R : IVec S800000 32) (T : FVec Ideal S800000x3 .f32) : FVec Ideal S50000x3 .f32 :=
  addf x1 (Host.divf (F := Ideal)
    (Host.scatterAdd scatter_S50000x3_S800000x1_S800000x3_1_0_0_1
      (broadcastInDim S50000x3 ![] bcast_S_S50000x3 (constant (F := Ideal) S_ .f32 0x00000000#32))
      (broadcastInDim S800000x1 ![0] bcast_S800000_S800000x1_0 R) T)
    (broadcastInDim S50000x3 ![] bcast_S_S50000x3 (constant (F := Ideal) S_ .f32 0x42C80000#32)))

/-! ## The arrays the region is entered with -/

theorem V_v1 (c : Dev nD) : V m c main_v1 = recvRow (m ((c : Thread nD τ).loc main_arg2)) := by
  show StableHlo.after hostOps0 (fun b => m (c, b)) (Proc.devRef .tc main_v1) = _
  after_results_simp
  rfl
theorem V_v12 (c : Dev nD) : V m c main_v12 = rows (m ((c : Thread nD τ).loc main_arg0)) (recvRow (m ((c : Thread nD τ).loc main_arg2))) := by
  show StableHlo.after hostOps0 (fun b => m (c, b)) (Proc.devRef .tc main_v12) = _
  after_results_simp
  rfl
theorem V_v19 (c : Dev nD) : V m c main_v19 = rows (m ((c : Thread nD τ).loc main_arg0)) (sendRow (m ((c : Thread nD τ).loc main_arg2))) := by
  show StableHlo.after hostOps0 (fun b => m (c, b)) (Proc.devRef .tc main_v19) = _
  after_results_simp
  rfl
theorem V_v5 (c : Dev nD) : V m c main_v5 = attrs (m ((c : Thread nD τ).loc main_arg4)) := by
  show StableHlo.after hostOps0 (fun b => m (c, b)) (Proc.devRef .tc main_v5) = _
  after_results_simp
  rfl
theorem V_v22 (c : Dev nD) : V m c main_v22 = bandA (m ((c : Thread nD τ).loc main_arg5)) := by
  show StableHlo.after hostOps0 (fun b => m (c, b)) (Proc.devRef .tc main_v22) = _
  after_results_simp
  rfl
theorem V_v24 (c : Dev nD) : V m c main_v24 = bandB (m ((c : Thread nD τ).loc main_arg5)) := by
  show StableHlo.after hostOps0 (fun b => m (c, b)) (Proc.devRef .tc main_v24) = _
  after_results_simp
  rfl
theorem V_v26 (c : Dev nD) : V m c main_v26 = bandC (m ((c : Thread nD τ).loc main_arg5)) := by
  show StableHlo.after hostOps0 (fun b => m (c, b)) (Proc.devRef .tc main_v26) = _
  after_results_simp
  rfl
theorem V_v29 (c : Dev nD) : V m c main_v29 = biasRow (m ((c : Thread nD τ).loc main_arg6)) := by
  show StableHlo.after hostOps0 (fun b => m (c, b)) (Proc.devRef .tc main_v29) = _
  after_results_simp
  rfl
theorem V_v28 (c : Dev nD) : V m c main_v28 = w2T (m ((c : Thread nD τ).loc main_arg7)) := by
  show StableHlo.after hostOps0 (fun b => m (c, b)) (Proc.devRef .tc main_v28) = _
  after_results_simp
  rfl
theorem V_v30 (c : Dev nD) : V m c main_v30 = biasRow (m ((c : Thread nD τ).loc main_arg8)) := by
  show StableHlo.after hostOps0 (fun b => m (c, b)) (Proc.devRef .tc main_v30) = _
  after_results_simp
  rfl

/-! ## The prepared operands read at an entry -/

theorem bandA_apply (x5 : FVec Ideal S128x258 .f32) (a j : Fin 128) : bandA x5 (ix2 a j) = x5 (ix2 j (band0 a)) := by
  unfold bandA
  rw [transpose_ix2_apply]
  exact extractStridedSlice_apply _ _ _ _ (ix2 j (band0 a)) fun ax => by
    match ax with
    | ⟨0, _⟩ => show j.val = 0 + j.val; omega
    | ⟨1, _⟩ => show a.val = 0 + a.val; omega
theorem bandB_apply (x5 : FVec Ideal S128x258 .f32) (a j : Fin 128) : bandB x5 (ix2 a j) = x5 (ix2 j (band1 a)) := by
  unfold bandB
  rw [transpose_ix2_apply]
  exact extractStridedSlice_apply _ _ _ _ (ix2 j (band1 a)) fun ax => by
    match ax with
    | ⟨0, _⟩ => show j.val = 0 + j.val; omega
    | ⟨1, _⟩ => rfl
theorem bandC_apply (x5 : FVec Ideal S128x258 .f32) (a : Fin 2) (j : Fin 128) : bandC x5 (ix2 a j) = x5 (ix2 j (band2 a)) := by
  unfold bandC
  rw [transpose_ix2_apply]
  exact extractStridedSlice_apply _ _ _ _ (ix2 j (band2 a)) fun ax => by
    match ax with
    | ⟨0, _⟩ => show j.val = 0 + j.val; omega
    | ⟨1, _⟩ => rfl
theorem w2T_apply (x7 : FVec Ideal S128x128 .f32) (j k : Fin 128) : w2T x7 (ix2 j k) = x7 (ix2 k j) := by
  unfold w2T
  rw [transpose_ix2_apply]
  rfl
theorem attrs_apply (x4 : FVec Ideal S800000x2 .f32) (i : S800000x2.Idx) : attrs x4 i = x4 i := rfl
theorem biasRow_apply (x : FVec Ideal S128 .f32) (j : Fin 128) : biasRow x (ix2 (0 : Fin 1) j) = x (ix1 j) := by
  unfold biasRow
  exact shapeCast_a_1a_apply x _ _ _

/-! ## The region's result, and the program's -/

/-- The region leaves the edge transform of the gathered rows and the arguments. -/
theorem trans_host (c : Dev nD) :
    trans (V m c main_v12) (V m c main_v19) (V m c main_v5) (V m c main_arg3) (V m c main_v22) (V m c main_v24) (V m c main_v26) (V m c main_v29) (V m c main_v28) (V m c main_v30) (V m c main_arg9)
      = edgeTrans κ (rows (m ((c : Thread nD τ).loc main_arg0)) (recvRow (m ((c : Thread nD τ).loc main_arg2)))) (rows (m ((c : Thread nD τ).loc main_arg0)) (sendRow (m ((c : Thread nD τ).loc main_arg2))))
          (m ((c : Thread nD τ).loc main_arg4)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := by
  rw [V_v12, V_v19, V_v5, V_main_arg3, V_v22, V_v24, V_v26, V_v29, V_v28, V_v30, V_main_arg9]
  funext i
  unfold RegionValue.trans edgeTrans
  simp only [bandA_apply, bandB_apply, bandC_apply, w2T_apply, biasRow_apply, attrs_apply]

/-- @main's result after the run, as the run's post states it: the host's tail of the edge transform. -/
theorem result_eq (c : Dev nD) :
    Pipeline.afterTail₀ cfgs (dats m) 0 (V0 m) [hostOps1] c main_v37
      = tailOf (m ((c : Thread nD τ).loc main_arg1)) (recvRow (m ((c : Thread nD τ).loc main_arg2)))
          (edgeTrans κ (rows (m ((c : Thread nD τ).loc main_arg0)) (recvRow (m ((c : Thread nD τ).loc main_arg2)))) (rows (m ((c : Thread nD τ).loc main_arg0)) (sendRow (m ((c : Thread nD τ).loc main_arg2))))
            (m ((c : Thread nD τ).loc main_arg4)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) := by
  unfold Pipeline.afterTail₀
  show StableHlo.after hostOps1 _ (Proc.devRef .tc main_v37) = _
  after_results
  have e1 : Pipeline.withArrays (cfgs 0).spec c (V0 m c) (fun w => (dats m 0 c).arrAt w (cfgs 0).N) (Proc.devRef .tc main_arg1)
      = (m ((c : Thread nD τ).loc main_arg1)) :=
    (Pipeline.withArrays_of_ne _ c (V0 m c) _ main_arg1 (by exact (by decide : ∀ w, Pipeline.arrRef spec0 w ≠ main_arg1))).trans
      (V_main_arg1 m c)
  have e2 : Pipeline.withArrays (cfgs 0).spec c (V0 m c) (fun w => (dats m 0 c).arrAt w (cfgs 0).N) (Proc.devRef .tc main_v1)
      = recvRow (m ((c : Thread nD τ).loc main_arg2)) :=
    (Pipeline.withArrays_of_ne _ c (V0 m c) _ main_v1 (by exact (by decide : ∀ w, Pipeline.arrRef spec0 w ≠ main_v1))).trans
      (V_v1 m c)
  have e3 : Pipeline.withArrays (cfgs 0).spec c (V0 m c) (fun w => (dats m 0 c).arrAt w (cfgs 0).N) (Proc.devRef .tc main_v31)
      = _ :=
    ((Pipeline.withArrays_arr spec0 launch0.win.arr_inj c _ _ 11).trans (final m c)).trans (trans_host m c)
  rw [e1, e2, e3]
  rfl

/-- THE KERNEL'S RUN, read: every weakly fair execution terminates with @main's result at the host's tail of the edge
    transform of the arguments, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v37)
          = tailOf (m ((c : Thread nD τ).loc main_arg1)) (recvRow (m ((c : Thread nD τ).loc main_arg2)))
              (edgeTrans κ (rows (m ((c : Thread nD τ).loc main_arg0)) (recvRow (m ((c : Thread nD τ).loc main_arg2)))) (rows (m ((c : Thread nD τ).loc main_arg0)) (sendRow (m ((c : Thread nD τ).loc main_arg2))))
            (m ((c : Thread nD τ).loc main_arg4)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v37 (Pipeline.mem_restRefs_of main_v37 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans ((((dats m) 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      ((h c).1 10).trans ((((dats m) 0 c).arrAt_in 10 rfl _).trans ((A_eq m c 10).trans (V_main_arg9 m c)))⟩)
    (run_main m ρ)

end Cert.KernelIdeal.HostValue

end
-- ==== Proof.RefValue.lean ====
/-
  The reference's edge transform, read entry by entry.  The reference joins, for every edge, the two gathered node rows and the
  edge's attributes into one row of 258 entries and contracts it with the whole first-layer matrix; read at a hidden unit that
  contraction is the sum over the three bands (Proof/EdgeGate.lean `sum_bands`), and in each band the joined row reads the piece
  it came from.  Its `silu` is spelt `z · (1 / (1 + e^(−z)))`, which is `z · σ(z)` by the definition of the logistic function on
  the extended reals.  The second layer and the last contraction are plain sums over 128 positions against the transposed
  weights; the final product `(d · tanh s) · κ` is `d · (tanh s · κ)` because multiplication of extended reals is associative.
  So the reference's transform is `edgeTrans` of its own gathered rows and the arguments.
-/
import proofs.«149462_j901943132401_2_alg».proof.Proof.Gen.ReferenceIdeal.Read
import proofs.«149462_j901943132401_2_alg».proof.Proof.EdgeGate
import Idealize.ShloMosaic.Lib.Pipeline.Value
import Idealize.ShloMosaic.Lib.ValueIdx
import Idealize.ShloMosaic.PureOps.IdealRules

set_option maxRecDepth 16384

noncomputable section

namespace Cert.ReferenceIdeal.RefValue

open Cert.ReferenceIdeal Cert.ReferenceIdeal.Gen Cert.ReferenceIdeal.Read Cert.EdgeGate
open Idealize.ShloMosaic Idealize.ShloMosaic.ValueIdx

variable (x0 : (⟨S50000x128, .f32⟩ : BufTy).Contents (Elt Ideal)) (x2 : (⟨S2x800000, .i32⟩ : BufTy).Contents (Elt Ideal)) (x3 : (⟨S800000x3, .f32⟩ : BufTy).Contents (Elt Ideal))
  (x4 : (⟨S800000x2, .f32⟩ : BufTy).Contents (Elt Ideal)) (x5 : (⟨S128x258, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal)) (x9 : (⟨S1x128, .f32⟩ : BufTy).Contents (Elt Ideal))

/-- The word of `1.0` is the extended real `1`. -/
theorem one_f32 : Ideal.ofBits .f32 0x3F800000#32 = 1 := IdealRules.sign_bit.ideal_onePat .f32

/-- The scale of the last product: the word of the literal `15.0`. -/
abbrev κ : EReal := Ideal.ofBits .f32 0x41700000#32

/-! ## The joined row, band by band -/

/-- Positions 0 … 127 of an edge's joined row are the row gathered for its receiving node. -/
theorem joined_band0 (e : Fin 800000) (k : Fin 128) :
    val_main_v18 (F := Ideal) x0 x2 x4 (ix2 e (band0 k)) = val_main_v10 (F := Ideal) x0 x2 (ix2 e k) := by
  unfold val_main_v18
  exact concatenate_apply_piece (1 : Fin S800000x258.rank)
    [⟨S800000x128, val_main_v10 (F := Ideal) x0 x2⟩, ⟨S800000x128, val_main_v17 (F := Ideal) x0 x2⟩, ⟨S800000x2, x4⟩]
    concatenates_S800000x128_S800000x128_S800000x2_S800000x258_d1 (ix2 e (band0 k))
    0 (by show (0 : ℕ) < 3; omega) S800000x128 _ rfl rfl 0 rfl (ix2 e k)
    (fun b hb => by
      match b with
      | ⟨0, _⟩ => rfl
      | ⟨1, _⟩ => exact absurd rfl hb) (Nat.zero_add _)

/-- Positions 128 … 255 are the row gathered for its sending node. -/
theorem joined_band1 (e : Fin 800000) (k : Fin 128) :
    val_main_v18 (F := Ideal) x0 x2 x4 (ix2 e (band1 k)) = val_main_v17 (F := Ideal) x0 x2 (ix2 e k) := by
  unfold val_main_v18
  exact concatenate_apply_piece (1 : Fin S800000x258.rank)
    [⟨S800000x128, val_main_v10 (F := Ideal) x0 x2⟩, ⟨S800000x128, val_main_v17 (F := Ideal) x0 x2⟩, ⟨S800000x2, x4⟩]
    concatenates_S800000x128_S800000x128_S800000x2_S800000x258_d1 (ix2 e (band1 k))
    1 (by show (1 : ℕ) < 3; omega) S800000x128 _ rfl rfl 128 rfl (ix2 e k)
    (fun b hb => by
      match b with
      | ⟨0, _⟩ => rfl
      | ⟨1, _⟩ => exact absurd rfl hb) rfl

/-- Positions 256, 257 are the edge's attributes. -/
theorem joined_band2 (e : Fin 800000) (k : Fin 2) :
    val_main_v18 (F := Ideal) x0 x2 x4 (ix2 e (band2 k)) = x4 (ix2 e k) := by
  unfold val_main_v18
  exact concatenate_apply_piece (1 : Fin S800000x258.rank)
    [⟨S800000x128, val_main_v10 (F := Ideal) x0 x2⟩, ⟨S800000x128, val_main_v17 (F := Ideal) x0 x2⟩, ⟨S800000x2, x4⟩]
    concatenates_S800000x128_S800000x128_S800000x2_S800000x258_d1 (ix2 e (band2 k))
    2 (by show (2 : ℕ) < 3; omega) S800000x2 _ rfl rfl 256 rfl (ix2 e k)
    (fun b hb => by
      match b with
      | ⟨0, _⟩ => rfl
      | ⟨1, _⟩ => exact absurd rfl hb) rfl

/-! ## The first layer -/

/-- The first layer's pre-activation at edge `e`, hidden unit `j`. -/
theorem pre1_apply (e : Fin 800000) (j : Fin 128) :
    val_main_v23 (F := Ideal) x0 x2 x4 x5 x6 (ix2 e j)
      = pre1 (fun k => val_main_v10 (F := Ideal) x0 x2 (ix2 e k)) (fun k => val_main_v17 (F := Ideal) x0 x2 (ix2 e k))
          (fun k => x4 (ix2 e k)) (fun a j => x5 (ix2 j (band0 a))) (fun a j => x5 (ix2 j (band1 a)))
          (fun a j => x5 (ix2 j (band2 a))) (fun j => x6 (ix1 j)) j := by
  have hsum : val_main_v20 (F := Ideal) x0 x2 x4 x5 (ix2 e j)
      = ∑ k : Fin 258, val_main_v18 (F := Ideal) x0 x2 x4 (ix2 e k) * x5 (ix2 j k) := by
    rw [val_main_v20_apply]
    refine Finset.sum_congr rfl fun k _ => ?_
    rw [val_main_v19_apply]
    have el : lidx_main_v20 (ix2 e j) k = ix2 e k := funext fun a => by
      match a with
      | ⟨0, _⟩ => rfl
      | ⟨1, _⟩ => rfl
    have er : idx_main_v19 (ridx_main_v20 (ix2 e j) k) = ix2 j k := funext fun a => by
      match a with
      | ⟨0, _⟩ => rfl
      | ⟨1, _⟩ => rfl
    rw [el, er]
  have hb : val_main_v22 (F := Ideal) x6 (ix2 e j) = x6 (ix1 j) := by
    rw [val_main_v22_apply, val_main_v21_apply]
    exact congrArg x6 (funext fun a => by
      match a with
      | ⟨0, _⟩ => rfl)
  rw [val_main_v23_apply, hsum, hb, sum_bands]
  simp only [joined_band0, joined_band1, joined_band2]
  rfl

/-- The first layer's activation is `silu` of its pre-activation. -/
theorem hidden1_apply (i : S800000x128.Idx) :
    val_main_v24 (F := Ideal) x0 x2 x4 x5 x6 i = silu (val_main_v23 (F := Ideal) x0 x2 x4 x5 x6 i) := by
  have h : val_main_v24 (F := Ideal) x0 x2 x4 x5 x6 i
      = val_main_v23 (F := Ideal) x0 x2 x4 x5 x6 i
        * Ideal.div (Ideal.ofBits .f32 0x3F800000#32)
            (Ideal.ofBits .f32 0x3F800000#32 + Ideal.exp (-(val_main_v23 (F := Ideal) x0 x2 x4 x5 x6 i))) := by
    rw [val_main_v24_apply, val_main_call0_v5_apply, val_main_call0_v4_apply, val_main_call0_cst_0_apply, val_main_call0_v3_apply,
      val_main_call0_v2_apply, val_main_call0_cst_apply, val_main_call0_v1_apply, val_main_call0_v0_apply]
    rfl
  rw [h, one_f32]
  rfl

/-! ## The second layer -/

/-- The second layer's pre-activation at edge `e`, unit `k`. -/
theorem pre2_apply (e : Fin 800000) (k : Fin 128) :
    val_main_v29 (F := Ideal) x0 x2 x4 x5 x6 x7 x8 (ix2 e k)
      = pre2 (fun j => val_main_v24 (F := Ideal) x0 x2 x4 x5 x6 (ix2 e j)) (fun j k => x7 (ix2 k j)) (fun k => x8 (ix1 k)) k := by
  have hsum : val_main_v26 (F := Ideal) x0 x2 x4 x5 x6 x7 (ix2 e k)
      = ∑ j : Fin 128, val_main_v24 (F := Ideal) x0 x2 x4 x5 x6 (ix2 e j) * x7 (ix2 k j) := by
    rw [val_main_v26_apply]
    refine Finset.sum_congr rfl fun j _ => ?_
    rw [val_main_v25_apply]
    have el : lidx_main_v26 (ix2 e k) j = ix2 e j := funext fun a => by
      match a with
      | ⟨0, _⟩ => rfl
      | ⟨1, _⟩ => rfl
    have er : idx_main_v25 (ridx_main_v26 (ix2 e k) j) = ix2 k j := funext fun a => by
      match a with
      | ⟨0, _⟩ => rfl
      | ⟨1, _⟩ => rfl
    rw [el, er]
  have hb : val_main_v28 (F := Ideal) x8 (ix2 e k) = x8 (ix1 k) := by
    rw [val_main_v28_apply, val_main_v27_apply]
    exact congrArg x8 (funext fun a => by
      match a with
      | ⟨0, _⟩ => rfl)
  rw [val_main_v29_apply, hsum, hb]
  rfl

/-- The second layer's activation is `silu` of its pre-activation. -/
theorem hidden2_apply (i : S800000x128.Idx) :
    val_main_v30 (F := Ideal) x0 x2 x4 x5 x6 x7 x8 i = silu (val_main_v29 (F := Ideal) x0 x2 x4 x5 x6 x7 x8 i) := by
  have h : val_main_v30 (F := Ideal) x0 x2 x4 x5 x6 x7 x8 i
      = val_main_v29 (F := Ideal) x0 x2 x4 x5 x6 x7 x8 i
        * Ideal.div (Ideal.ofBits .f32 0x3F800000#32)
            (Ideal.ofBits .f32 0x3F800000#32 + Ideal.exp (-(val_main_v29 (F := Ideal) x0 x2 x4 x5 x6 x7 x8 i))) := by
    rw [val_main_v30_apply, val_main_call1_v5_apply, val_main_call1_v4_apply, val_main_call1_cst_0_apply, val_main_call1_v3_apply,
      val_main_call1_v2_apply, val_main_call1_cst_apply, val_main_call1_v1_apply, val_main_call1_v0_apply]
    rfl
  rw [h, one_f32]
  rfl

/-! ## The last contraction and the transform -/

/-- The contraction with the last weight row at edge `e`. -/
theorem score_apply (e : Fin 800000) (u : Fin 1) :
    val_main_v32 (F := Ideal) x0 x2 x4 x5 x6 x7 x8 x9 (ix2 e u)
      = ∑ k : Fin 128, val_main_v30 (F := Ideal) x0 x2 x4 x5 x6 x7 x8 (ix2 e k) * x9 (ix2 (0 : Fin 1) k) := by
  rw [val_main_v32_apply]
  refine Finset.sum_congr rfl fun k _ => ?_
  rw [val_main_v31_apply]
  have el : lidx_main_v32 (ix2 e u) k = ix2 e k := funext fun a => by
    match a with
    | ⟨0, _⟩ => rfl
    | ⟨1, _⟩ => rfl
  have er : idx_main_v31 (ridx_main_v32 (ix2 e u) k) = ix2 (0 : Fin 1) k := funext fun a => by
    match a with
    | ⟨0, _⟩ => exact Fin.ext (by have := u.isLt; show u.val = 0; omega)
    | ⟨1, _⟩ => rfl
  rw [el, er]

/-- THE REFERENCE'S TRANSFORM is the edge transform of its gathered rows and the arguments. -/
theorem trans_eq :
    val_main_v37 (F := Ideal) x0 x2 x3 x4 x5 x6 x7 x8 x9
      = edgeTrans κ (val_main_v10 (F := Ideal) x0 x2) (val_main_v17 (F := Ideal) x0 x2) x4 x3 x5 x6 x7 x8 x9 := by
  funext i
  obtain ⟨e, q, rfl⟩ : ∃ (e : Fin 800000) (q : Fin 3), i = ix2 e q := ⟨i 0, i 1, eq_ix2 i⟩
  have hs : val_main_v34 (F := Ideal) x0 x2 x4 x5 x6 x7 x8 x9 (ix2 e q)
      = Ideal.tanh (∑ k : Fin 128, val_main_v30 (F := Ideal) x0 x2 x4 x5 x6 x7 x8 (ix2 e k) * x9 (ix2 (0 : Fin 1) k)) := by
    rw [val_main_v34_apply, val_main_v33_apply]
    have ei : idx_main_v34 (ix2 e q) = ix2 e (0 : Fin 1) := funext fun a => by
      match a with
      | ⟨0, _⟩ => rfl
      | ⟨1, _⟩ => rfl
    rw [ei, score_apply]
    rfl
  have hk : val_main_v36 (F := Ideal) (ix2 e q) = κ := by
    rw [val_main_v36_apply, val_main_cst_apply]
    rfl
  rw [val_main_v37_apply, val_main_v35_apply, hs, hk]
  unfold edgeTrans gate
  simp only [hidden2_apply, pre2_apply, hidden1_apply, pre1_apply]
  exact mul_assoc _ _ _

end Cert.ReferenceIdeal.RefValue

end
-- ==== Proof.lean ====
/-
  The certificate of an edge-update layer of an equivariant graph network: for 800000 edges between 50000 nodes, a two-layer
  perceptron of the two end nodes' features and the edge's attributes gives a scalar gate per edge; the edge's coordinate
  difference times `tanh` of the gate times 15 is summed at the edge's receiving node, divided by 100 and added to the node
  coordinates.

  The kernel feeds the two gathered feature arrays and the attributes to its region separately, with the first-layer weights
  cut into three column bands, and runs the region over blocks of 4000 edges; the reference joins the three pieces into rows of
  258 entries and contracts them with the whole matrix.  On the extended reals both compute ONE function of the arguments:
    * the kernel's region leaves `edgeTrans` of the gathered rows (Proof/BodyValue.lean, Proof/RegionValue.lean, Proof/HostValue.lean);
    * the reference's transform is the same `edgeTrans` (Proof/RefValue.lean), a sum over 258 positions being the sum over its
      three bands and a product of three factors not depending on its bracketing;
    * the gathers before and the scatter-add, division and addition after are the same host operations of the same arrays
      (`bridge` below), so they are carried as one function and never opened.
  No finiteness of the inputs is used: commutativity and associativity of + and · hold on all of the extended reals.
  The three frames are the generated ones (the reference's from its generated run); the idealization rewrote nothing.
-/
import proofs.«149462_j901943132401_2_alg».proof.Defs
import proofs.«149462_j901943132401_2_alg».proof.Proof.Gen.Kernel
import proofs.«149462_j901943132401_2_alg».proof.Proof.Gen.Kernel.Skeleton
import proofs.«149462_j901943132401_2_alg».proof.Proof.Gen.Kernel.Launch
import proofs.«149462_j901943132401_2_alg».proof.Proof.Gen.Kernel.Points
import proofs.«149462_j901943132401_2_alg».proof.Proof.Gen.Kernel.Frame
import proofs.«149462_j901943132401_2_alg».proof.Proof.Gen.KernelIdeal
import proofs.«149462_j901943132401_2_alg».proof.Proof.Gen.KernelIdeal.Skeleton
import proofs.«149462_j901943132401_2_alg».proof.Proof.Gen.KernelIdeal.Launch
import proofs.«149462_j901943132401_2_alg».proof.Proof.Gen.KernelIdeal.Points
import proofs.«149462_j901943132401_2_alg».proof.Proof.Gen.KernelIdeal.Frame
import proofs.«149462_j901943132401_2_alg».proof.Proof.Gen.ReferenceIdeal
import proofs.«149462_j901943132401_2_alg».proof.Proof.Gen.ReferenceIdeal.Run
import proofs.«149462_j901943132401_2_alg».proof.Proof.Gen.ReferenceIdeal.Read
import proofs.«149462_j901943132401_2_alg».proof.Proof.Gen.Pre_finite_inputs
import proofs.«149462_j901943132401_2_alg».proof.Proof.HostValue
import proofs.«149462_j901943132401_2_alg».proof.Proof.RefValue
import Idealize.ShloMosaic.Adequacy
import Idealize.ShloMosaic.Init

set_option maxRecDepth 16384

noncomputable section

namespace Cert.Proof

open Idealize.ShloMosaic Idealize.SL.Sem Cert.EdgeGate
open Cert.KernelIdeal.HostValue (tailOf recvRow sendRow rows)

/-- The reference's result is the host's tail — the scatter-add at the receiving nodes, the division, the added coordinates —
    of the edge transform of the rows the kernel's host gathers: the reference gathers the same rows with the same start
    indices (a change of float format is the identity), its transform is `edgeTrans` of them, and its last four operations
    are the kernel's. -/
theorem bridge (x0 : (⟨Cert.ReferenceIdeal.S50000x128, .f32⟩ : BufTy).Contents (Elt Ideal)) (x1 : (⟨Cert.ReferenceIdeal.S50000x3, .f32⟩ : BufTy).Contents (Elt Ideal)) (x2 : (⟨Cert.ReferenceIdeal.S2x800000, .i32⟩ : BufTy).Contents (Elt Ideal))
    (x3 : (⟨Cert.ReferenceIdeal.S800000x3, .f32⟩ : BufTy).Contents (Elt Ideal)) (x4 : (⟨Cert.ReferenceIdeal.S800000x2, .f32⟩ : BufTy).Contents (Elt Ideal)) (x5 : (⟨Cert.ReferenceIdeal.S128x258, .f32⟩ : BufTy).Contents (Elt Ideal))
    (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S1x128, .f32⟩ : BufTy).Contents (Elt Ideal)) :
    Cert.ReferenceIdeal.Read.val_main_v43 (F := Ideal) x0 x1 x2 x3 x4 x5 x6 x7 x8 x9
      = tailOf x1 (recvRow x2)
          (edgeTrans Cert.KernelIdeal.BodyValue.κ (rows x0 (recvRow x2)) (rows x0 (sendRow x2)) x4 x3 x5 x6 x7 x8 x9) := by
  have h1 : Cert.ReferenceIdeal.Read.val_main_v10 (F := Ideal) x0 x2 = rows x0 (recvRow x2) := rfl
  have h2 : Cert.ReferenceIdeal.Read.val_main_v17 (F := Ideal) x0 x2 = rows x0 (sendRow x2) := rfl
  have ht := Cert.ReferenceIdeal.RefValue.trans_eq x0 x2 x3 x4 x5 x6 x7 x8 x9
  rw [h1, h2] at ht
  unfold Cert.ReferenceIdeal.Read.val_main_v43 Cert.ReferenceIdeal.Read.val_main_v42 Cert.ReferenceIdeal.Read.val_main_v40
  rw [ht]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at `tailOf` of `edgeTrans` of the arguments. -/
theorem algebraic : Cert.algebraic_KernelIdeal_ReferenceIdeal := by
  intro m ρ m' ρ' _ hagree
  refine ⟨_, Cert.KernelIdeal.HostValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v43_eq, a0, a1, a2, a3, a4, a5, a6, a7, a8, a9]
  exact bridge _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
